-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_temp" .f32 0x41A00000#32 ((268435456 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024 : Shape := ⟨1, ![1024]⟩
abbrev S65536x1024 : Shape := ⟨2, ![65536, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S65536x1024 : S_.BroadcastsInDim S65536x1024 (![] : Fin 0 → Fin S65536x1024.rank)
  reducesTo_S65536x1024_S_d0_1 : S65536x1024.ReducesTo [0, 1] S_

variable [Facts]

def fn {F : FTy → Type} [FloatOps F] (main_arg0 : FVec F S1024 .f32) (main_arg1 : FVec F S1024 .f32) (main_arg2 : FVec F S65536x1024 .f32) : IVec S_ 1 :=
  let main_v0 : FVec F S1024 .f32 := Host.absf main_arg0
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S65536x1024 .f32 := Host.absf main_arg2
  let main_cst_2 : FVec F S_ .f32 := constant S_ .f32 0x7F800000#32
  let main_v10 : FVec F S65536x1024 .f32 := broadcastInDim S65536x1024 ![] bcast_S_S65536x1024 main_cst_2
  let main_v11 : IVec S65536x1024 1 := cmpf .olt main_v9 main_v10
  let main_c_3 : IVec S_ 1 := constantI S_ 1 1#1
  let main_v12 : IVec S_ 1 := (fun x v => Host.reduce IntOp.andi x v reducesTo_S65536x1024_S_d0_1 h_S_) main_v11 main_c_3
  let main_v13 : IVec S_ 1 := andi main_v8 main_v12
  main_v13
-- ==== Kernel.lean ====
abbrev S1024 : Shape := ⟨1, ![1024]⟩
abbrev S65536x1024 : Shape := ⟨2, ![65536, 1024]⟩
abbrev S_ : Shape := ⟨0, ![]⟩
abbrev S1x1024 : Shape := ⟨2, ![1, 1024]⟩
abbrev S1x1 : Shape := ⟨2, ![1, 1]⟩
abbrev S2048x1024 : Shape := ⟨2, ![2048, 1024]⟩
abbrev S2048 : Shape := ⟨1, ![2048]⟩
abbrev S2048x1 : Shape := ⟨2, ![2048, 1]⟩
abbrev S1 : Shape := ⟨1, ![1]⟩

abbrev nBuf : Space → Nat
  | .hbm => 31
  | .vmem => 6
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S65536x1024, .f32⟩
  | .hbm, ⟨3, _⟩ => ⟨S1024, .f32⟩
  | .hbm, ⟨4, _⟩ => ⟨S_, .f32⟩
  | .hbm, ⟨5, _⟩ => ⟨S_, .f32⟩
  | .hbm, ⟨6, _⟩ => ⟨S1024, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1024, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S1x1024, .f32⟩
  | .hbm, ⟨21, _⟩ => ⟨S1x1, .f32⟩
  | .hbm, ⟨22, _⟩ => ⟨S1x1, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S1, .f32⟩
  | .local _ .vmem, ⟨0, _⟩ => ⟨S1x1024, .f32⟩
  | .local _ .vmem, ⟨1, _⟩ => ⟨S1x1, .f32⟩
  | .local _ .vmem, ⟨2, _⟩ => ⟨S2048x1024, .f32⟩
  | .local _ .vmem, ⟨3, _⟩ => ⟨S2048x1024, .f32⟩
  | .local _ .vmem, ⟨4, _⟩ => ⟨S1x1, .f32⟩
  | .local _ .vmem, ⟨5, _⟩ => ⟨S1x1, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v31 : BitVec 1 := Scalar.cmpi .eq arg0 c31_i32
  let v32 : BitVec 32 := Scalar.extui v31
  let c0_i32_14 : BitVec 32 := 0#32
  let v33 : BitVec 1 := Scalar.cmpi .ne v32 c0_i32_14
  v33

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  reducesTo_S1024_S_d0 : S1024.ReducesTo [0] S_
  h_S_ : 0 < S_.numel
  shapeCasts_S1024_S1x1024 : S1024.ShapeCasts S1x1024
  shapeCasts_S_S1x1 : S_.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S2048x1024_S2048x1024_0_0 : ∀ a, (![0, 0] : Fin 2 → Nat) a + S2048x1024.size a ≤ S2048x1024.size a
  h_S2048x1024 : 0 < S2048x1024.numel
  broadcasts_S1x1024_S2048x1024 : S1x1024.Broadcasts S2048x1024
  reduces_S2048x1024_S2048 : S2048x1024.Reduces [1] S2048
  shapeCasts_S2048_S2048x1 : S2048.ShapeCasts S2048x1
  inpos_S1x1_p0_0 : ∀ a, (![0, 0] : Fin 2 → Nat) a < S1x1.size a
  reduces_S2048x1_S1 : S2048x1.Reduces [0] S1
  shapeCasts_S1_S1x1 : S1.ShapeCasts S1x1
  shapeCasts_S1x1_S_ : S1x1.ShapeCasts S_
  shapeCasts_S_S1 : S_.ShapeCasts S1
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x1024.size a
  hwx0_0 : ∀ i : grid0.Coords, EltTy.bits .f32 = 32 ∨ (Rect.block (s := S1x1024) S1x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S65536x1024.size a
  hwx0_2 : ∀ i : grid0.Coords, EltTy.bits .f32 = 32 ∨ (Rect.block (s := S65536x1024) S2048x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_v12) S1x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1024 : Shape := ⟨1, ![1024]⟩
abbrev S65536x1024 : Shape := ⟨2, ![65536, 1024]⟩
abbrev S_ : Shape := ⟨0, ![]⟩
abbrev S1x1024 : Shape := ⟨2, ![1, 1024]⟩
abbrev S65536 : Shape := ⟨1, ![65536]⟩
abbrev S1 : Shape := ⟨1, ![1]⟩

abbrev nBuf : Space → Nat
  | .hbm => 52
  | .vmem => 0
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S65536x1024, .f32⟩
  | .hbm, ⟨3, _⟩ => ⟨S1024, .f32⟩
  | .hbm, ⟨4, _⟩ => ⟨S_, .f32⟩
  | .hbm, ⟨5, _⟩ => ⟨S_, .f32⟩
  | .hbm, ⟨6, _⟩ => ⟨S1024, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1024, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S1x1024, .f32⟩
  | .hbm, ⟨21, _⟩ => ⟨S65536x1024, .f32⟩
  | .hbm, ⟨22, _⟩ => ⟨S65536x1024, .f32⟩
  | .hbm, ⟨23, _⟩ => ⟨S_, .f32⟩
  | .hbm, ⟨24, _⟩ => ⟨S65536, .f32⟩
  | .hbm, ⟨25, _⟩ => ⟨S1x1024, .f32⟩
  | .hbm, ⟨26, _⟩ => ⟨S_, .f32⟩
  | .hbm, ⟨27, _⟩ => ⟨S1, .f32⟩
  | .hbm, ⟨28, _⟩ => ⟨S1, .f32⟩
  | .hbm, ⟨29, _⟩ => ⟨S65536x1024, .f32⟩
  | .hbm, ⟨30, _⟩ => ⟨S_, .f32⟩
  | .hbm, ⟨31, _⟩ => ⟨S65536, .f32⟩
  | .hbm, ⟨32, _⟩ => ⟨S65536, .f32⟩
  | .hbm, ⟨33, _⟩ => ⟨S65536, .f32⟩
  | .hbm, ⟨34, _⟩ => ⟨S65536, .f32⟩
  | .hbm, ⟨35, _⟩ => ⟨S_, .f32⟩
  | .hbm, ⟨36, _⟩ => ⟨S65536, .f32⟩
  | .hbm, ⟨37, _⟩ => ⟨S65536, .f32⟩
  | .hbm, ⟨38, _⟩ => ⟨S65536, .f32⟩
  | .hbm, ⟨39, _⟩ => ⟨S_, .f32⟩
  | .hbm, ⟨40, _⟩ => ⟨S65536, .f32⟩
  | .hbm, ⟨41, _⟩ => ⟨S65536, .f32⟩
  | .hbm, ⟨42, _⟩ => ⟨S65536, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S1, .f32⟩
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_v2 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_call2_v0 : Ref sig .tc := ⟨.hbm, 25, rfl⟩
abbrev main_call2_cst : Ref sig .tc := ⟨.hbm, 26, rfl⟩
abbrev main_call2_v1 : Ref sig .tc := ⟨.hbm, 27, rfl⟩
abbrev main_v12 : Ref sig .tc := ⟨.hbm, 28, rfl⟩
abbrev main_call3_v0 : Ref sig .tc := ⟨.hbm, 29, rfl⟩
abbrev main_call3_cst : Ref sig .tc := ⟨.hbm, 30, rfl⟩
abbrev main_call3_v1 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_3 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_5 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_6 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩

abbrev nD : Nat := 1
abbrev τ : Topo := Topo.v7x

variable {F : FTy → Type} [FloatOps F]

class Facts₀ : Prop where
  reducesTo_S1024_S_d0 : S1024.ReducesTo [0] S_
  h_S_ : 0 < S_.numel
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  reducesTo_S65536x1024_S65536_d1 : S65536x1024.ReducesTo [1] S65536
  reducesTo_S1x1024_S1_d1 : S1x1024.ReducesTo [1] S1
  bcast_S1_S65536_0 : S1.BroadcastsInDim S65536 (![0] : Fin 1 → Fin S65536.rank)
  bcast_S_S65536 : S_.BroadcastsInDim S65536 (![] : Fin 0 → Fin S65536.rank)
  reducesTo_S65536_S_d0 : S65536.ReducesTo [0] S_
  shapeCasts_S_S1 : S_.ShapeCasts S1

variable [Facts₀]

class Facts : Prop extends Facts₀ where

variable [Facts]
-- ==== Proof.InvTemp.lean ====
/-
  The one named constant of the idealized kernel: the folded reciprocal of the temperature. The reference
  divides a cosine by the f32 word of 0.05, which is the rational 13421773 / 2^28; the kernel multiplies by
  the literal 20.0, named "inv_temp" and read at the ideal instance as the exact reciprocal
  2^28 / 13421773 of that word. On the extended reals, dividing by a nonzero real is multiplying by its
  reciprocal, so the two scalings are one function.
-/
import proofs.«109496_j55362128445929_1_alg».proof.Defs

noncomputable section

open Idealize.ShloMosaic

namespace Cert.KernelIdeal.Bridge

/-- The named literal denotes 2^28 / 13421773 at the ideal instance, by the certificate's table. -/
theorem inv_temp :
    Named.named (F := Ideal) Cert.KernelIdeal.κ "inv_temp" (φ := .f32) 0x41A00000#32
      = ((268435456 / 13421773 : ℝ) : EReal) :=
  IdealRules.named_const.ideal_named_scalar _ _ _ _ rfl

end Cert.KernelIdeal.Bridge

end
-- ==== Proof.LibMomentsSums.lean ====
/-
  GENERAL lemmas on finite sums over an additive commutative monoid (so they hold on the extended reals with no
  finiteness hypothesis).

  * A sum over K * b indices is the sum over K consecutive blocks of width b (the index b * k + i of block k,
    place i, runs through every index exactly once).
  * The padded blocked sum: 80 rows, of which only the rows 8 t (t = 0 … 9) are nonzero and row 8 t holds the
    sum of block t of a family of 50000 terms cut into 10 blocks of width 5000; the sum of the 80 rows is the
    sum of the 50000 terms.
  * A sum over 384 indices is the sum of three sums over 128 indices (k, 128 + k, 256 + k).
-/
import Mathlib.Algebra.BigOperators.Fin
import Mathlib.Algebra.BigOperators.Group.Finset.Basic
import Mathlib.Logic.Equiv.Fin.Basic
import Mathlib.Tactic.Ring

namespace Cert.LibMoments

open scoped BigOperators

variable {M : Type*} [AddCommMonoid M]

/-! ## Blocks -/

/-- Place i of block k is an index of the whole. -/
theorem idx_lt {K b : ℕ} (k : Fin K) (i : Fin b) : i.val + b * k.val < K * b := by
  have hk : k.val + 1 ≤ K := k.isLt
  calc i.val + b * k.val < b + b * k.val := Nat.add_lt_add_right i.isLt _
    _ = b * (k.val + 1) := by ring
    _ ≤ b * K := Nat.mul_le_mul_left _ hk
    _ = K * b := Nat.mul_comm _ _

/-- A sum over K * b indices, block by block: (k, i) ↦ i + b * k is a bijection of pairs with indices. -/
theorem sum_fin_mul (K b : ℕ) (f : Fin (K * b) → M) :
    ∑ j : Fin (K * b), f j = ∑ k : Fin K, ∑ i : Fin b, f ⟨i.val + b * k.val, idx_lt k i⟩ := by
  rw [← (finProdFinEquiv (m := K) (n := b)).sum_comp f, Fintype.sum_prod_type]
  rfl

/-! ## The padded blocked sum -/

/-- Place q of the block that row r names (block r / 8) is one of the 50000 indices. -/
theorem pad_lt (r : Fin 80) (q : Fin 5000) : 5000 * (r.val / 8) + q.val < 50000 := by
  have := r.isLt; have := q.isLt; omega

/-- The padded blocked sum, with the rows' entries given as a function G r q and the index relation as a
    hypothesis on values (only asked at the rows that count, r % 8 = 0): any spelling of the index applies. -/
theorem padded_sum_of (g : Fin 50000 → M) (G : Fin 80 → Fin 5000 → M)
    (hG : ∀ (r : Fin 80) (q : Fin 5000) (p : Fin 50000), r.val % 8 = 0 → p.val = 5000 * (r.val / 8) + q.val →
      G r q = g p) :
    ∑ r : Fin 80, (if r.val % 8 = 0 then ∑ q : Fin 5000, G r q else 0) = ∑ p : Fin 50000, g p := by
  have e1 := sum_fin_mul (M := M) 10 8 (fun r : Fin 80 => if r.val % 8 = 0 then ∑ q : Fin 5000, G r q else 0)
  have e2 := sum_fin_mul (M := M) 10 5000 g
  refine (e1.trans ?_).trans e2.symm
  refine Fintype.sum_congr _ _ fun t => ?_
  have h0 : ∀ i : Fin 8, i ≠ 0 → ¬ ((i.val + 8 * t.val) % 8 = 0) := by
    intro i hi h
    apply hi
    apply Fin.ext
    have := i.isLt
    show i.val = 0
    omega
  rw [Finset.sum_eq_single (0 : Fin 8) (fun i _ hi => if_neg (h0 i hi)) (fun h => absurd (Finset.mem_univ _) h)]
  have hz : ((0 : Fin 8).val + 8 * t.val) % 8 = 0 := by
    show (0 + 8 * t.val) % 8 = 0
    omega
  rw [if_pos hz]
  refine Fintype.sum_congr _ _ fun q => hG _ q _ hz ?_
  show q.val + 5000 * t.val = 5000 * ((0 + 8 * t.val) / 8) + q.val
  omega

/-- The padded blocked sum in its literal form. -/
theorem padded_sum (g : Fin 50000 → M) :
    ∑ r : Fin 80, (if r.val % 8 = 0 then ∑ q : Fin 5000, g ⟨5000 * (r.val / 8) + q.val, pad_lt r q⟩ else 0)
      = ∑ p : Fin 50000, g p :=
  padded_sum_of g _ fun _ _ _ _ hp => congrArg g (Fin.ext hp.symm)

/-- The same with any family of proofs of the bound. -/
theorem padded_sum' (g : Fin 50000 → M) (h : ∀ (r : Fin 80) (q : Fin 5000), 5000 * (r.val / 8) + q.val < 50000) :
    ∑ r : Fin 80, (if r.val % 8 = 0 then ∑ q : Fin 5000, g ⟨5000 * (r.val / 8) + q.val, h r q⟩ else 0)
      = ∑ p : Fin 50000, g p :=
  padded_sum g

/-! ## Three blocks of width 128 -/

/-- A sum over 384 indices as three sums over 128, the three families given as functions and the index relations
    as hypotheses on values. -/
theorem sum_384_of (f : Fin 384 → M) (a b c : Fin 128 → M)
    (ha : ∀ (k : Fin 128) (j : Fin 384), j.val = k.val → a k = f j)
    (hb : ∀ (k : Fin 128) (j : Fin 384), j.val = 128 + k.val → b k = f j)
    (hc : ∀ (k : Fin 128) (j : Fin 384), j.val = 256 + k.val → c k = f j) :
    ∑ j : Fin 384, f j = (∑ k : Fin 128, a k) + (∑ k : Fin 128, b k) + ∑ k : Fin 128, c k := by
  have e := sum_fin_mul (M := M) 3 128 f
  refine e.trans ?_
  rw [Fin.sum_univ_three]
  refine congrArg₂ (· + ·) (congrArg₂ (· + ·) ?_ ?_) ?_
  · refine Fintype.sum_congr _ _ fun k => (ha k _ ?_).symm
    show k.val + 128 * 0 = k.val
    omega
  · refine Fintype.sum_congr _ _ fun k => (hb k _ ?_).symm
    show k.val + 128 * 1 = 128 + k.val
    omega
  · refine Fintype.sum_congr _ _ fun k => (hc k _ ?_).symm
    show k.val + 128 * 2 = 256 + k.val
    omega

theorem lt_384_0 (k : Fin 128) : k.val < 384 := by have := k.isLt; omega
theorem lt_384_1 (k : Fin 128) : 128 + k.val < 384 := by have := k.isLt; omega
theorem lt_384_2 (k : Fin 128) : 256 + k.val < 384 := by have := k.isLt; omega

/-- The literal form. -/
theorem sum_384 (f : Fin 384 → M) :
    ∑ j : Fin 384, f j = (∑ k : Fin 128, f ⟨k.val, lt_384_0 k⟩) + (∑ k : Fin 128, f ⟨128 + k.val, lt_384_1 k⟩)
      + ∑ k : Fin 128, f ⟨256 + k.val, lt_384_2 k⟩ :=
  sum_384_of f _ _ _ (fun _ _ h => congrArg f (Fin.ext h.symm)) (fun _ _ h => congrArg f (Fin.ext h.symm))
    (fun _ _ h => congrArg f (Fin.ext h.symm))

end Cert.LibMoments
-- ==== Proof.Spec.lean ====
/-
  The negative-similarity sum, stated on the extended reals with no program in sight.

  For an anchor vector a (1024 entries) and one negative row x, the row's term is

      exp ( (Σ_k x_k a_k) / max(√(Σ_k x_k²) · ‖a‖, ε) · c ),     ‖a‖ = √(Σ_k a_k²),

  with ε the f32 word of 1e-6 and c the reciprocal of the f32 word of the temperature 0.05. The sum of these
  terms over the 65536 negative rows is what both programs divide exp(positive similarity) by.

  The rows come in 32 consecutive blocks of 2048. Because addition on the extended reals is commutative and
  associative with no side condition, the running total "previous total + sum of block t", started from zero,
  ends at the sum over all rows: no finiteness is needed anywhere.
-/
import Idealize.ShloMosaic.PureOps.Ideal
import Idealize.ShloMosaic.PureOps.Ideal.Laws
import proofs.«109496_j55362128445929_1_alg».proof.Proof.LibMomentsSums

noncomputable section

open scoped BigOperators
open Idealize.ShloMosaic

namespace Cert.NegSum

/-- ε: the f32 word of 1e-6, as both programs spell it. -/
abbrev epsW : EReal := Ideal.ofBits .f32 0x358637BD#32

/-- c: the reciprocal of the f32 word of 0.05 (that word is 13421773 / 2^28). -/
abbrev invTemp : EReal := ((268435456 / 13421773 : ℝ) : EReal)

/-- The norm of the anchor. -/
def anorm (a : Fin 1024 → EReal) : EReal := Ideal.sqrt (∑ k, a k * a k)

/-- One negative row's term: exp of its scaled cosine with the anchor. -/
def rowTerm (a : Fin 1024 → EReal) (an : EReal) (x : Fin 1024 → EReal) : EReal :=
  Ideal.exp (Ideal.div (∑ k, x k * a k) (max (Ideal.sqrt (∑ k, x k * x k) * an) epsW) * invTemp)

/-- The sum over all negative rows. -/
def negSum (a : Fin 1024 → EReal) (X : Fin 65536 → Fin 1024 → EReal) : EReal :=
  ∑ n, rowTerm a (anorm a) (X n)

/-! ## Blocks of rows -/

/-- Row r of block t among all rows. -/
def rowOf (t : Fin 32) (r : Fin 2048) : Fin 65536 := ⟨r.val + 2048 * t.val, by have := r.isLt; have := t.isLt; omega⟩

/-- The sum of block t of a family over all rows. -/
def blockSum (f : Fin 65536 → EReal) (t : Fin 32) : EReal := ∑ r : Fin 2048, f (rowOf t r)

/-- The 32 block sums add up to the sum over all rows. -/
theorem sum_blockSum (f : Fin 65536 → EReal) : ∑ t : Fin 32, blockSum f t = ∑ n : Fin 65536, f n :=
  (Cert.LibMoments.sum_fin_mul (M := EReal) 32 2048 f).symm

/-- Block t's sum for an index that may be out of range (zero there). -/
def blockAt (f : Fin 65536 → EReal) (t : ℕ) : EReal := if h : t < 32 then blockSum f ⟨t, h⟩ else 0

/-- The running total after block n: blocks 0 … n. -/
def runningTotal (f : Fin 65536 → EReal) (n : ℕ) : EReal := ∑ t ∈ Finset.range (n + 1), blockAt f t

theorem runningTotal_zero (f : Fin 65536 → EReal) : runningTotal f 0 = blockAt f 0 := by
  unfold runningTotal; rw [Finset.sum_range_one]

theorem runningTotal_succ (f : Fin 65536 → EReal) (n : ℕ) :
    runningTotal f (n + 1) = runningTotal f n + blockAt f (n + 1) := by
  unfold runningTotal; rw [Finset.sum_range_succ]

/-- After the last block the running total is the sum over all rows. -/
theorem runningTotal_last (f : Fin 65536 → EReal) : runningTotal f 31 = ∑ n : Fin 65536, f n := by
  unfold runningTotal
  rw [← Fin.sum_univ_eq_sum_range (fun t => blockAt f t) 32, ← sum_blockSum]
  refine Finset.sum_congr rfl fun t _ => ?_
  unfold blockAt
  rw [dif_pos t.isLt]

end Cert.NegSum

end
-- ==== Proof.LibLayout.lean ====
/-
  Layout operations read at an index given by coordinates: the forms a row-wise normalization meets and the
  library does not yet have.

  * a column of row statistics: a vector `[a]` cast to `[a, 1]` (`keepdims`), and that column broadcast back over
    the `b` lanes of every row, `[a, 1] → [a, b]`;
  * one matrix broadcast over a new leading axis, `[1, b, c] → [a, b, c]`;
  * the rows of a `[4096, 768]` block regrouped as `[4, 1024, 768]` and back: row `r` is group `r / 1024`,
    member `r % 1024`, because both arrays list their entries in the same row-major order;
  * a sum over the lane axis of a matrix, read at row `r`: the sum over `k` of the entries `(r, k)`.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One `[1, b, c]` matrix broadcast over a leading axis of `a` copies reads, at `(p, q, r)`, the matrix at `(q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- The 4096 rows regrouped as 4 groups of 1024: entry `(g, n, k)` of the regrouped array is row `g · 1024 + n`. -/
theorem shapeCast_split_apply (x : (⟨2, ![4096, 768]⟩ : Shape).Idx → α)
    (h : (⟨2, ![4096, 768]⟩ : Shape).ShapeCasts ⟨3, ![4, 1024, 768]⟩) (g : Fin 4) (n : Fin 1024) (k : Fin 768) :
    shapeCast ⟨3, ![4, 1024, 768]⟩ x h (ix3 g n k) = x (ix2 (⟨g.val * 1024 + n.val, by omega⟩ : Fin 4096) k) :=
  shapeCast_apply x h _ _ (by
    rw [Shape.rowMajor_val_two, Shape.rowMajor_val_three]
    rfl)

/-- The 4 groups of 1024 rows listed again as 4096 rows: row `r` is member `r % 1024` of group `r / 1024`. -/
theorem shapeCast_merge_apply (y : (⟨3, ![4, 1024, 768]⟩ : Shape).Idx → α)
    (h : (⟨3, ![4, 1024, 768]⟩ : Shape).ShapeCasts ⟨2, ![4096, 768]⟩) (r : Fin 4096) (k : Fin 768) :
    shapeCast ⟨2, ![4096, 768]⟩ y h (ix2 r k)
      = y (ix3 (⟨r.val / 1024, by omega⟩ : Fin 4) (⟨r.val % 1024, by omega⟩ : Fin 1024) k) :=
  shapeCast_apply y h _ _ (by
    rw [Shape.rowMajor_val_two, Shape.rowMajor_val_three]
    show (r.val / 1024 * 1024 + r.val % 1024) * 768 + k.val = r.val * 768 + k.val
    omega)

/-- Over row `r` of a matrix, the index with lane `k` put back on the summed axis is `(r, k)`. -/
theorem lift_row {a b : ℕ} (h : Shape.Reduces ⟨2, ![a, b]⟩ [1] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lane axis of a matrix, read at row `r` at the exact instance: the sum of the row's entries. -/
theorem laneSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) :=
  (Ideal.multiReduction_add_single v 0x00000000#32 h hφ hacc (ix1 r)).trans
    (Finset.sum_congr rfl fun k _ => congrArg v (lift_row h r k))

end Cert.LibLayout

end
-- ==== Proof.Payload.lean ====
/-
  The kernel body's arithmetic at one grid point, read at the exact instance.

  The body loads the anchor row a (1 × 1024), the anchor's norm (1 × 1), one block x of 2048 negative rows
  (2048 × 1024) and the accumulator (1 × 1), and stores back

      accumulator + Σ_{r < 2048} exp( (Σ_k x_{r,k} a_k) / max(√(Σ_k x_{r,k}²) · norm, ε) · c ),

  that is the accumulator plus the sum of the block's row terms: every operation in between is pointwise, a lane
  sum of a row, a column cast, a row broadcast, or the final sum down the column of 2048 row terms.
-/
import proofs.«109496_j55362128445929_1_alg».proof.Proof.Gen.KernelIdeal.Skeleton
import proofs.«109496_j55362128445929_1_alg».proof.Proof.Spec
import proofs.«109496_j55362128445929_1_alg».proof.Proof.InvTemp
import proofs.«109496_j55362128445929_1_alg».proof.Proof.LibLayout
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.KernelIdeal.Bridge

open Cert.KernelIdeal Cert.KernelIdeal.Gen Cert.NegSum

/-- Over a column of 2048 entries, the index with row r put back on the summed axis is (r, 0). -/
theorem lift_col (h : Shape.Reduces ⟨2, ![2048, 1]⟩ [0] ⟨1, ![1]⟩) (u : Fin 1) (r : Fin 2048) :
    h.lift (ix1 u) r = ix2 r (0 : Fin 1) := by
  funext c
  refine Fin.ext ?_
  match c with
  | ⟨0, _⟩ => rfl
  | ⟨1, _⟩ => exact (congrArg Fin.val (Subsingleton.elim u (0 : Fin 1)) : u.val = (0 : Fin 1).val)

/-- The position (0, 0) of a 1 × 1 vector, as the body's extract spells it. -/
theorem pos00 (h : ∀ a : Fin 2, (![0, 0] : Fin 2 → ℕ) a < (⟨2, ![1, 1]⟩ : Shape).size a) :
    (fun a => (⟨(![0, 0] : Fin 2 → ℕ) a, h a⟩ : Fin ((⟨2, ![1, 1]⟩ : Shape).size a))) = ix2 (0 : Fin 1) (0 : Fin 1) := by
  funext a
  match a with
  | ⟨0, _⟩ => rfl
  | ⟨1, _⟩ => rfl

/-- The zero block the first grid point stores into the accumulator is zero. -/
theorem pay1_apply (j : S1x1.Idx) : k0_pay1 (F := Ideal) j = 0 := by
  unfold k0_pay1
  refine (congrFun (shapeCast_self _ _) _).trans ?_
  exact Ideal.ofBits_zero_f32

/-- What the body stores into the accumulator: the accumulator plus the sum of the block's row terms. -/
theorem pay2_apply (x0 : Vec Ideal S1x1024 .f32) (x2 : Vec Ideal S2048x1024 .f32) (x1 acc : Vec Ideal S1x1 .f32) (j : S1x1.Idx) :
    k0_pay2 (F := Ideal) x0 x2 x1 acc j
      = acc j + ∑ r : Fin 2048, rowTerm (fun k => x0 (ix2 (0 : Fin 1) k)) (x1 (ix2 (0 : Fin 1) (0 : Fin 1))) (fun k => x2 (ix2 r k)) := by
  obtain ⟨p, q, rfl⟩ : ∃ (p : Fin 1) (q : Fin 1), j = ix2 p q := ⟨j 0, j 1, eq_ix2 j⟩
  unfold k0_pay2
  dsimp only
  refine (congrFun (shapeCast_self _ _) _).trans ?_
  refine congrArg (acc (ix2 p q) + ·) ?_
  refine (Cert.LibLayout.shapeCast_a_a1_apply _ _ p q).trans ?_
  refine (Ideal.multiReduction_add_single _ _ _ _ _ (ix1 p)).trans ?_
  refine Finset.sum_congr rfl fun r _ => ?_
  refine (congrArg _ (lift_col _ p r)).trans ?_
  unfold rowTerm
  refine congrArg Ideal.exp ?_
  refine congrArg₂ (· * ·) (congrArg₂ Ideal.div ?dot (congrArg₂ max (congrArg₂ (· * ·) (congrArg Ideal.sqrt ?sq) ?an) rfl)) inv_temp
  case dot =>
    refine (Cert.LibLayout.shapeCast_a_a1_apply _ _ r (0 : Fin 1)).trans ?_
    refine (Cert.LibLayout.laneSum_apply _ _ _ _ r).trans ?_
    refine Finset.sum_congr rfl fun k _ => ?_
    exact congrArg (x2 (ix2 r k) * ·) ((broadcastTo_1b_ab_apply _ _ r k).trans (congrFun (shapeCast_self _ _) _))
  case sq =>
    refine (Cert.LibLayout.shapeCast_a_a1_apply _ _ r (0 : Fin 1)).trans ?_
    exact Cert.LibLayout.laneSum_apply _ _ _ _ r
  case an =>
    exact congrArg x1 (pos00 _)

end Cert.KernelIdeal.Bridge

end
-- ==== Proof.Pieces.lean ====
/-
  What one run of the kernel body leaves behind, as values of what it loaded.

  The body's three cases differ only in bookkeeping. At the first grid point it first stores a zero block into
  the accumulator and then adds the block's sum to what it reads back; at the other points it adds the block's
  sum to what the point before left; at the last point it also copies the accumulator into the output block.
  In every case the accumulator ends at "payload(anchor, negatives, norm, accumulator on entry)", where on entry
  the first point sees the zero block, and at the last point the output block holds the same value.
-/
import proofs.«109496_j55362128445929_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Bridge

open Cert.KernelIdeal Cert.KernelIdeal.Gen

variable {F : FTy → Type} [FloatOps F] [Named F]

theorem hz : (![0, 0] : Fin 2 → Nat) = fun _ => 0 := funext fun a => by fin_cases a <;> rfl

/-- A middle point: the accumulator ends at the payload of what it held on entry. -/
theorem acc_B (c : Dev nD) (i : grid0.Coords) (arg1 : Memref sig .tc .vmem S1x1024 .f32) (harg1 : arg1.IsWhole) (arg2 : Memref sig .tc .vmem S1x1 .f32) (harg2 : arg2.IsWhole) (arg3 : Memref sig .tc .vmem S2048x1024 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 : Vec F S1x1024 .f32) (x1 : Vec F S1x1 .f32) (x2 : Vec F S2048x1024 .f32) (xs0 : Vec F S1x1 .f32) :
    sout0_B_0 c i arg1 harg1 arg2 harg2 arg3 harg3 arg4 harg4 arg5 harg5 hc0 hc1 x0 x1 x2 xs0 = k0_pay2 x0 x2 x1 xs0 := by
  unfold sout0_B_0
  rw [View.read_writes_eq_canon _ _ _ (scover0_B_0 c i arg1 harg1 arg2 harg2 arg3 harg3 arg4 harg4 arg5 harg5 hc0 hc1 x0 x1 x2 xs0)]
  unfold kernelRun0_B
  dsimp only
  rw [View.canon_unit_zero hz]
  simp only [View.readAt_eq_ld, harg1.read_unread, harg2.read_unread, harg3.read_unread, harg5.read_unread, View.ld_unit_zero (S := S1x1024) hz, View.ld_unit_zero (S := S2048x1024) hz, View.ld_unit_zero (S := S1x1) hz]

/-- The last point: the accumulator ends at the payload of what it held on entry, -/
theorem acc_C (c : Dev nD) (i : grid0.Coords) (arg1 : Memref sig .tc .vmem S1x1024 .f32) (harg1 : arg1.IsWhole) (arg2 : Memref sig .tc .vmem S1x1 .f32) (harg2 : arg2.IsWhole) (arg3 : Memref sig .tc .vmem S2048x1024 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S1x1024 .f32) (x1 : Vec F S1x1 .f32) (x2 : Vec F S2048x1024 .f32) (xs0 : Vec F S1x1 .f32) :
    sout0_C_0 c i arg1 harg1 arg2 harg2 arg3 harg3 arg4 harg4 arg5 harg5 hc0 hc1 x0 x1 x2 xs0 = k0_pay2 x0 x2 x1 xs0 := by
  unfold sout0_C_0
  rw [View.read_writes_eq_canon _ _ _ (scover0_C_0 c i arg1 harg1 arg2 harg2 arg3 harg3 arg4 harg4 arg5 harg5 hc0 hc1 x0 x1 x2 xs0)]
  unfold kernelRun0_C
  dsimp only
  sl_unfold_words
  rw [View.canon_unit_zero (S := S1x1) hz]
  simp only [View.readAt_eq_ld, harg1.read_unread, harg2.read_unread, harg3.read_unread, harg5.read_unread, View.ld_unit_zero (S := S1x1024) hz, View.ld_unit_zero (S := S2048x1024) hz, View.ld_unit_zero (S := S1x1) hz]

/-- and the output block is a copy of it. -/
theorem out_C (c : Dev nD) (i : grid0.Coords) (arg1 : Memref sig .tc .vmem S1x1024 .f32) (harg1 : arg1.IsWhole) (arg2 : Memref sig .tc .vmem S1x1 .f32) (harg2 : arg2.IsWhole) (arg3 : Memref sig .tc .vmem S2048x1024 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S1x1024 .f32) (x1 : Vec F S1x1 .f32) (x2 : Vec F S2048x1024 .f32) (xs0 : Vec F S1x1 .f32) :
    out0_C_3 c i arg1 harg1 arg2 harg2 arg3 harg3 arg4 harg4 arg5 harg5 hc0 hc1 x0 x1 x2 xs0 = k0_pay2 x0 x2 x1 xs0 := by
  unfold out0_C_3
  rw [View.read_writes_eq_canon _ _ _ (cover0_C_3 c i arg1 harg1 arg2 harg2 arg3 harg3 arg4 harg4 arg5 harg5 hc0 hc1 x0 x1 x2 xs0)]
  unfold kernelRun0_C
  dsimp only
  sl_unfold_words
  rw [View.canon_unit_zero (S := S1x1) hz, View.readCov_unit_zero (S := S1x1) _ hz]
  simp only [View.readAt_eq_ld, harg1.read_unread, harg2.read_unread, harg3.read_unread, harg5.read_unread, View.ld_unit_zero (S := S1x1024) hz, View.ld_unit_zero (S := S2048x1024) hz, View.ld_unit_zero (S := S1x1) hz]

/-- The first point: the accumulator is first set to the zero block, and ends at the payload of that. -/
theorem acc_A (c : Dev nD) (i : grid0.Coords) (arg1 : Memref sig .tc .vmem S1x1024 .f32) (harg1 : arg1.IsWhole) (arg2 : Memref sig .tc .vmem S1x1 .f32) (harg2 : arg2.IsWhole) (arg3 : Memref sig .tc .vmem S2048x1024 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 : Vec F S1x1024 .f32) (x1 : Vec F S1x1 .f32) (x2 : Vec F S2048x1024 .f32) :
    sout0_A_0 c i arg1 harg1 arg2 harg2 arg3 harg3 arg4 harg4 arg5 harg5 hc0 hc1 x0 x1 x2 = k0_pay2 x0 x2 x1 (k0_pay1 (F := F)) := by
  unfold sout0_A_0
  rw [View.read_writes_eq_canon _ _ _ (scover0_A_0 c i arg1 harg1 arg2 harg2 arg3 harg3 arg4 harg4 arg5 harg5 hc0 hc1 x0 x1 x2)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg5.read_unread, View.ld_unit_zero (S := S1x1024) hz, View.ld_unit_zero (S := S2048x1024) hz, View.ld_unit_zero (S := S1x1) hz]

end Cert.KernelIdeal.Bridge

end
-- ==== Proof.Blocks.lean ====
/-
  What the kernel's windows hold at a grid point, as entries of the program's arguments.

  * Window 2 walks the negatives in blocks of 2048 rows: at point t its block's entry (r, k) is the negatives'
    entry (2048 t + r, k).
  * Window 0 holds, at every point, the anchor laid out as one row: entry (0, k) is the anchor's entry k.
  * Window 1 holds, at every point, the anchor's norm as a 1 × 1 array: the host computed it before the region
    as the square root of the sum of the anchor's squared entries.
-/
import proofs.«109496_j55362128445929_1_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Bridge

open Cert.KernelIdeal Cert.KernelIdeal.Gen

variable {F : FTy → Type} [FloatOps F] [Named F]
variable (m : (ℓ : Loc nD τ sig) → Buf (Elt F) ℓ)

/-- Row r of block t is one of the 65536 rows. -/
theorem row_lt (t : Fin cfg0.N) (r : Fin 2048) : r.val + 2048 * t.val < 65536 := by
  have hN : cfg0.N = 32 := N_0
  have := t.isLt; have := r.isLt; omega

/-- Where window 2's block sits at point t: block row t, block column 0. -/
theorem index2 : ∀ t : Fin cfg0.N, win0_2.index t 0 = t.val ∧ win0_2.index t 1 = 0 :=
  (by decide +kernel : ∀ t : Fin grid0.N, win0_2.index t 0 = t.val ∧ win0_2.index t 1 = 0)

/-- Windows 0 and 1 never move: block (0, 0). -/
theorem index0 : ∀ t : Fin cfg0.N, win0_0.index t 0 = 0 ∧ win0_0.index t 1 = 0 :=
  (by decide +kernel : ∀ t : Fin grid0.N, win0_0.index t 0 = 0 ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)

/-- The negatives' block at point t, entry (r, k): the negatives' entry (2048 t + r, k). -/
theorem negBlock_apply (c : Dev nD) (t : Fin cfg0.N) (r : Fin 2048) (k : Fin 1024) :
    (iblk m c 2 t : Vec F S2048x1024 .f32) (ix2 r k)
      = m ((c : Thread nD τ).loc main_arg2) (ix2 (⟨r.val + 2048 * t.val, row_lt t r⟩ : Fin 65536) k) := by
  have hi := index2 t
  unfold iblk
  rw [View.read_apply]
  show V m c main_arg2 _ = _
  rw [V_main_arg2 m c]
  refine congrArg _ (funext fun a => Fin.ext ?_)
  match a with
  | ⟨0, _⟩ => show win0_2.index t 0 * 2048 + 1 * r.val = r.val + 2048 * t.val; rw [hi.1]; omega
  | ⟨1, _⟩ => show win0_2.index t 1 * 1024 + 1 * k.val = k.val; rw [hi.2]; omega

/-- The anchor row as the region finds it: the anchor recast as 1 × 1024. -/
theorem V_anchorRow (c : Dev nD) :
    (V m c main_v12 : S1x1024.Idx → Elt F .f32) = shapeCast S1x1024 (m ((c : Thread nD τ).loc main_arg0)) shapeCasts_S1024_S1x1024 := by
  show StableHlo.after hostOps0 (fun b => m (c, b)) (Proc.devRef .tc main_v12) = _
  after_results
  rfl

/-- The anchor's norm as the region finds it: the host's square root of the host's sum of squares, recast as 1 × 1. -/
theorem V_anchorNorm (c : Dev nD) :
    (V m c main_v13 : S1x1.Idx → Elt F .f32)
      = shapeCast S1x1 (Host.sqrt (F := F) (Host.reduceAdd (F := F) (mulf (m ((c : Thread nD τ).loc main_arg0)) (m ((c : Thread nD τ).loc main_arg0)))
          (constant (F := F) S_ .f32 0x00000000#32) reducesTo_S1024_S_d0 h_S_)) shapeCasts_S_S1x1 := by
  show StableHlo.after hostOps0 (fun b => m (c, b)) (Proc.devRef .tc main_v13) = _
  after_results
  rfl

/-- The anchor's block at any point, entry (0, k): the anchor's entry k. -/
theorem anchorBlock_apply (c : Dev nD) (t : Fin cfg0.N) (k : Fin 1024) :
    (iblk m c 0 t : Vec F S1x1024 .f32) (ix2 (0 : Fin 1) k) = m ((c : Thread nD τ).loc main_arg0) (ix1 k) := by
  have hi := index0 t
  unfold iblk
  rw [View.read_apply]
  show V m c main_v12 _ = _
  rw [V_anchorRow m c]
  refine Eq.trans (congrArg _ (funext fun a => Fin.ext ?_)) (shapeCast_a_1a_apply _ _ (0 : Fin 1) k)
  match a with
  | ⟨0, _⟩ => show win0_0.index t 0 * 1 + 1 * 0 = 0; rw [hi.1]
  | ⟨1, _⟩ => show win0_0.index t 1 * 1024 + 1 * k.val = k.val; rw [hi.2]; omega

/-- The norm's block at any point, its one entry: the host's norm of the anchor. -/
theorem normBlock_apply (c : Dev nD) (t : Fin cfg0.N) :
    (iblk m c 1 t : Vec F S1x1 .f32) (ix2 (0 : Fin 1) (0 : Fin 1))
      = Host.sqrt (F := F) (Host.reduceAdd (F := F) (mulf (m ((c : Thread nD τ).loc main_arg0)) (m ((c : Thread nD τ).loc main_arg0)))
          (constant (F := F) S_ .f32 0x00000000#32) reducesTo_S1024_S_d0 h_S_) ix0 := by
  have hi := index1 t
  unfold iblk
  rw [View.read_apply]
  show V m c main_v13 _ = _
  rw [V_anchorNorm m c]
  refine shapeCast_apply _ _ _ _ ?_
  rfl

end Cert.KernelIdeal.Bridge

end
-- ==== Proof.Accum.lean ====
/-
  The accumulator across the grid.

  Write f(n) for the term of negative row n (Spec: exp of its scaled cosine with the anchor, the anchor's norm
  being the one the host computed). At grid point t the body adds to the accumulator the sum of the terms of
  rows 2048 t … 2048 t + 2047. The first point starts from the zero block. So after point n the accumulator
  holds the running total of blocks 0 … n, by induction on the point; after the last point that is the sum of
  f over all 65536 rows, and the last point copies it into the output block.
-/
import proofs.«109496_j55362128445929_1_alg».proof.Proof.Payload
import proofs.«109496_j55362128445929_1_alg».proof.Proof.Pieces
import proofs.«109496_j55362128445929_1_alg».proof.Proof.Blocks

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Bridge

open Cert.KernelIdeal Cert.KernelIdeal.Gen Cert.NegSum

/-! ## Each case's accumulator, at a grid point, any float instance -/

section AnyF

variable {F : FTy → Type} [FloatOps F] [Named F]
variable (m : (ℓ : Loc nD τ sig) → Buf (Elt F) ℓ)

/-- At the first point the accumulator ends at the payload of the zero block. -/
theorem acc_first (c : Dev nD) (t : Fin cfg0.N) (h0 : t.val % 32 = 0) (h1 : ¬t.val % 32 = 31) :
    (outsAt0 m c t.val t.isLt).2 = k0_pay2 (iblk m c 0 t) (iblk m c 2 t) (iblk m c 1 t) (k0_pay1 (F := F)) := by
  rw [outsAt0_A m c t h0 h1]
  dsimp only
  exact acc_A c (grid0.coords t) (ms0_0 t) (hs0_0 t) (ms0_1 t) (hs0_1 t) (ms0_2 t) (hs0_2 t) (ms0_3 t) (hs0_3 t) scM0_0
    (Memref.isWhole_whole _) ((hcond0_0 t).mpr h0) (fun h => h1 ((hcond0_1 t).mp h)) (iblk m c 0 t) (iblk m c 1 t) (iblk m c 2 t)

/-- At a middle point it ends at the payload of what the point before left. -/
theorem acc_middle (c : Dev nD) (t : Fin cfg0.N) (h0 : ¬t.val % 32 = 0) (h1 : ¬t.val % 32 = 31) :
    (outsAt0 m c t.val t.isLt).2 = k0_pay2 (iblk m c 0 t) (iblk m c 2 t) (iblk m c 1 t)
      (outsAt0 m c (t.val - 1) (Nat.lt_of_le_of_lt (Nat.sub_le _ _) t.isLt)).2 := by
  rw [outsAt0_B m c t h0 h1]
  dsimp only
  exact acc_B c (grid0.coords t) (ms0_0 t) (hs0_0 t) (ms0_1 t) (hs0_1 t) (ms0_2 t) (hs0_2 t) (ms0_3 t) (hs0_3 t) scM0_0
    (Memref.isWhole_whole _) (fun h => h0 ((hcond0_0 t).mp h)) (fun h => h1 ((hcond0_1 t).mp h)) (iblk m c 0 t) (iblk m c 1 t) (iblk m c 2 t) _

/-- At the last point likewise, -/
theorem acc_last (c : Dev nD) (t : Fin cfg0.N) (h0 : ¬t.val % 32 = 0) (h1 : t.val % 32 = 31) :
    (outsAt0 m c t.val t.isLt).2 = k0_pay2 (iblk m c 0 t) (iblk m c 2 t) (iblk m c 1 t)
      (outsAt0 m c (t.val - 1) (Nat.lt_of_le_of_lt (Nat.sub_le _ _) t.isLt)).2 := by
  rw [outsAt0_C m c t h0 h1]
  dsimp only
  exact acc_C c (grid0.coords t) (ms0_0 t) (hs0_0 t) (ms0_1 t) (hs0_1 t) (ms0_2 t) (hs0_2 t) (ms0_3 t) (hs0_3 t) scM0_0
    (Memref.isWhole_whole _) (fun h => h0 ((hcond0_0 t).mp h)) ((hcond0_1 t).mpr h1) (iblk m c 0 t) (iblk m c 1 t) (iblk m c 2 t) _

/-- and the output block holds the same. -/
theorem out_last (c : Dev nD) (t : Fin cfg0.N) (h0 : ¬t.val % 32 = 0) (h1 : t.val % 32 = 31) :
    (outsAt0 m c t.val t.isLt).1 = (outsAt0 m c t.val t.isLt).2 := by
  rw [outsAt0_C m c t h0 h1]
  dsimp only
  exact (out_C c (grid0.coords t) (ms0_0 t) (hs0_0 t) (ms0_1 t) (hs0_1 t) (ms0_2 t) (hs0_2 t) (ms0_3 t) (hs0_3 t) scM0_0
    (Memref.isWhole_whole _) (fun h => h0 ((hcond0_0 t).mp h)) ((hcond0_1 t).mpr h1) (iblk m c 0 t) (iblk m c 1 t) (iblk m c 2 t) _).trans
    (acc_C c (grid0.coords t) (ms0_0 t) (hs0_0 t) (ms0_1 t) (hs0_1 t) (ms0_2 t) (hs0_2 t) (ms0_3 t) (hs0_3 t) scM0_0
    (Memref.isWhole_whole _) (fun h => h0 ((hcond0_0 t).mp h)) ((hcond0_1 t).mpr h1) (iblk m c 0 t) (iblk m c 1 t) (iblk m c 2 t) _).symm

end AnyF

/-! ## The running total, at the exact instance -/

variable (m : (ℓ : Loc nD τ sig) → Buf (Elt Ideal) ℓ)

/-- The anchor's entries. -/
def anchorOf (c : Dev nD) : Fin 1024 → EReal := fun k => m ((c : Thread nD τ).loc main_arg0) (ix1 k)

/-- The negatives' rows. -/
def negOf (c : Dev nD) : Fin 65536 → Fin 1024 → EReal := fun n k => m ((c : Thread nD τ).loc main_arg2) (ix2 n k)

/-- The anchor's norm as the host computes it before the region. -/
def hostNorm (c : Dev nD) : EReal :=
  Host.sqrt (F := Ideal) (Host.reduceAdd (F := Ideal) (mulf (m ((c : Thread nD τ).loc main_arg0)) (m ((c : Thread nD τ).loc main_arg0)))
    (constant (F := Ideal) S_ .f32 0x00000000#32) reducesTo_S1024_S_d0 h_S_) ix0

/-- The term of negative row n. -/
def rowTerms (c : Dev nD) : Fin 65536 → EReal := fun n => rowTerm (anchorOf m c) (hostNorm m c) (negOf m c n)

/-- One grid point's payload over variables: the accumulator's value plus the sum of the block's row terms. -/
theorem step_value (x0 : Vec Ideal S1x1024 .f32) (x1 : Vec Ideal S1x1 .f32) (x2 : Vec Ideal S2048x1024 .f32) (acc : Vec Ideal S1x1 .f32)
    (a : Fin 1024 → EReal) (an : EReal) (f : Fin 2048 → Fin 1024 → EReal) (s : EReal)
    (h0 : ∀ k : Fin 1024, x0 (ix2 (0 : Fin 1) k) = a k) (h1 : x1 (ix2 (0 : Fin 1) (0 : Fin 1)) = an)
    (h2 : ∀ (r : Fin 2048) (k : Fin 1024), x2 (ix2 r k) = f r k) (hacc : ∀ j, acc j = s) (j : S1x1.Idx) :
    k0_pay2 (F := Ideal) x0 x2 x1 acc j = s + ∑ r : Fin 2048, rowTerm a an (f r) := by
  rw [pay2_apply, hacc j, h1]
  refine congrArg (s + ·) (Finset.sum_congr rfl fun r _ => ?_)
  rw [show (fun k => x0 (ix2 (0 : Fin 1) k)) = a from funext h0, show (fun k => x2 (ix2 r k)) = f r from funext (h2 r)]

/-- The block's sum at point t is the sum of the terms of its 2048 rows. -/
theorem step_at (c : Dev nD) (t : Fin cfg0.N) (ht : t.val < 32) (acc : Vec Ideal S1x1 .f32) (s : EReal) (hacc : ∀ j, acc j = s) (j : S1x1.Idx) :
    k0_pay2 (F := Ideal) (iblk m c 0 t) (iblk m c 2 t) (iblk m c 1 t) acc j = s + blockSum (rowTerms m c) ⟨t.val, ht⟩ :=
  step_value (iblk m c 0 t) (iblk m c 1 t) (iblk m c 2 t) acc (anchorOf m c) (hostNorm m c)
    (fun r => negOf m c (rowOf ⟨t.val, ht⟩ r)) s (anchorBlock_apply m c t) (normBlock_apply m c t) (negBlock_apply m c t) hacc j

/-- After point n the accumulator holds the running total of blocks 0 … n. -/
theorem acc_after (c : Dev nD) : ∀ (n : ℕ) (h : n < cfg0.N) (j : S1x1.Idx),
    (outsAt0 m c n h).2 j = runningTotal (rowTerms m c) n
  | 0, h, j => by
    have e := acc_first m c ⟨0, h⟩ rfl (by dsimp only; omega)
    rw [show (outsAt0 m c 0 h).2 = _ from e, runningTotal_zero]
    refine (step_at m c ⟨0, h⟩ (by dsimp only; omega) _ 0 pay1_apply j).trans ?_
    rw [zero_add]
    unfold blockAt
    rw [dif_pos (by decide : (0 : ℕ) < 32)]
  | n + 1, h, j => by
    have hN : cfg0.N = 32 := N_0
    have hlt : n + 1 < 32 := by omega
    have h0 : ¬(⟨n + 1, h⟩ : Fin cfg0.N).val % 32 = 0 := by dsimp only; omega
    have ih := acc_after c n (Nat.lt_of_succ_lt h)
    rw [runningTotal_succ]
    unfold blockAt
    rw [dif_pos hlt]
    by_cases h1 : (⟨n + 1, h⟩ : Fin cfg0.N).val % 32 = 31
    · have e := acc_last m c ⟨n + 1, h⟩ h0 h1
      rw [show (outsAt0 m c (n + 1) h).2 = _ from e]
      exact step_at m c ⟨n + 1, h⟩ hlt _ _ ih j
    · have e := acc_middle m c ⟨n + 1, h⟩ h0 h1
      rw [show (outsAt0 m c (n + 1) h).2 = _ from e]
      exact step_at m c ⟨n + 1, h⟩ hlt _ _ ih j

/-- After the last point the output block holds the sum of the terms of all rows. -/
theorem out_final (c : Dev nD) (t : Fin cfg0.N) (ht : t.val % 32 = 31) (j : S1x1.Idx) :
    (outsAt0 m c t.val t.isLt).1 j = ∑ n : Fin 65536, rowTerms m c n := by
  have hN : cfg0.N = 32 := N_0
  have h31 : t.val = 31 := by have := t.isLt; omega
  rw [out_last m c t (by omega) ht, acc_after m c t.val t.isLt j]
  rw [show t.val = 31 from h31, runningTotal_last]

end Cert.KernelIdeal.Bridge

end
-- ==== Proof.Tail.lean ====
/-
  The end of both programs: from the positive similarity p (a scalar) and the sum N over the negatives, the loss

      −log( exp(p) / N + ε ),

  returned as an array of one entry. Both programs spell it with the same host operations; here it is read once,
  at the exact instance, as that closed form, and never opened again.
-/
import proofs.«109496_j55362128445929_1_alg».proof.Proof.Spec
import Idealize.ShloMosaic.Lib.ValueIdx
import Idealize.ShloMosaic.Lib.Pipeline.Value

noncomputable section

open Idealize.ShloMosaic Idealize.ShloMosaic.ValueIdx

namespace Cert.NegSum

/-- The loss from the positive similarity and the negatives' sum, as a one-entry array. -/
def lossTail (p N : EReal) : (⟨1, ![1]⟩ : Shape).Idx → EReal :=
  fun _ => -(Ideal.log (Ideal.div (Ideal.exp p) N + epsW))

/-- The host's spelling of the end — exp, divide, add ε, log, negate, recast the scalar as [1] — is that closed form. -/
theorem lossTail_eq (P N : (⟨0, ![]⟩ : Shape).Idx → EReal) (h : (⟨0, ![]⟩ : Shape).ShapeCasts ⟨1, ![1]⟩) :
    shapeCast ⟨1, ![1]⟩ (Host.negf (F := Ideal) (φ := .f32) (Host.log (F := Ideal) (φ := .f32) (addf (F := Ideal) (φ := .f32)
      (Host.divf (F := Ideal) (φ := .f32) (Host.exp (F := Ideal) (φ := .f32) P) N) (constant (F := Ideal) ⟨0, ![]⟩ .f32 0x358637BD#32)))) h
      = lossTail (P ix0) (N ix0) := by
  funext i
  obtain ⟨u, rfl⟩ : ∃ u : Fin 1, i = ix1 u := ⟨i 0, eq_ix1 i⟩
  obtain rfl : u = 0 := Subsingleton.elim _ _
  refine (shapeCast_apply _ h (ix1 (0 : Fin 1)) ix0 rfl).trans ?_
  rfl

/-- The positive similarity as both programs' host lines spell it: the cosine of anchor and positive — their dot
    product over max(‖a‖ · ‖p‖, ε), norms as square roots of sums of squares — divided by the temperature's word. -/
def posSim (a p : (⟨1, ![1024]⟩ : Shape).Idx → EReal) : (⟨0, ![]⟩ : Shape).Idx → EReal :=
  Host.divf (F := Ideal) (φ := .f32)
    (Host.divf (F := Ideal) (φ := .f32)
      (Host.reduceAdd (F := Ideal) (φ := .f32) (axes := [0]) (t := ⟨0, ![]⟩) (mulf (F := Ideal) (φ := .f32) a p) (constant (F := Ideal) ⟨0, ![]⟩ .f32 0x00000000#32))
      (maximumf (F := Ideal) (φ := .f32)
        (mulf (F := Ideal) (φ := .f32)
          (Host.sqrt (F := Ideal) (φ := .f32) (Host.reduceAdd (F := Ideal) (φ := .f32) (axes := [0]) (t := ⟨0, ![]⟩) (mulf (F := Ideal) (φ := .f32) a a) (constant (F := Ideal) ⟨0, ![]⟩ .f32 0x00000000#32)))
          (Host.sqrt (F := Ideal) (φ := .f32) (Host.reduceAdd (F := Ideal) (φ := .f32) (axes := [0]) (t := ⟨0, ![]⟩) (mulf (F := Ideal) (φ := .f32) p p) (constant (F := Ideal) ⟨0, ![]⟩ .f32 0x00000000#32))))
        (constant (F := Ideal) ⟨0, ![]⟩ .f32 0x358637BD#32)))
    (constant (F := Ideal) ⟨0, ![]⟩ .f32 0x3D4CCCCD#32)

/-- A constant scalar recast from 1 × 1 to rank 0 is the same constant. -/
theorem shapeCast_const_11 (s : EReal) (h : (⟨2, ![1, 1]⟩ : Shape).ShapeCasts ⟨0, ![]⟩) :
    shapeCast ⟨0, ![]⟩ (fun _ : (⟨2, ![1, 1]⟩ : Shape).Idx => s) h = fun _ => s := rfl

end Cert.NegSum

end
-- ==== Proof.LibIdxSums.lean ====
/-
  GENERAL lemmas: a sum over the index set of a rank-1 array is the sum over its one coordinate, and a sum over
  the index set of a rank-3 array is the triple sum over its coordinates (any additive commutative monoid).
-/
import Idealize.ShloMosaic.Lib.ValueIdx

noncomputable section

open scoped BigOperators

namespace Cert.LibIdxSums

open Idealize.ShloMosaic Idealize.ShloMosaic.ValueIdx

/-- A rank-1 index set is its coordinate's range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.LibIdxSums

end
-- ==== Proof.KernelRun.lean ====
/-
  The idealized kernel's run, read as a value.

  The region's one output block is written back once, after the last grid point, and that block is the whole
  1 × 1 result array: so the array ends at the sum of the row terms over all 65536 negative rows (Accum). The host
  lines after the region recast it as a scalar N and return −log(exp(p) / N + ε) as a one-entry array, p being
  the positive similarity the host computed before the region; the three arguments end unchanged.
-/
import proofs.«109496_j55362128445929_1_alg».proof.Proof.Accum
import proofs.«109496_j55362128445929_1_alg».proof.Proof.Tail
import proofs.«109496_j55362128445929_1_alg».proof.Proof.LibIdxSums
import Idealize.ShloMosaic.Lib.Pipeline.Value
import Idealize.ShloMosaic.Lib.StableHlo.Run

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Bridge

open Cert.KernelIdeal Cert.KernelIdeal.Gen Cert.NegSum

variable (m : (ℓ : Loc nD τ sig) → Buf (Elt Ideal) ℓ) (ρ : Dev nD → PrngReg)

/-- What the region leaves in its result array's one entry: the sum of the row terms. -/
def totalSum (c : Dev nD) : EReal := ∑ n : Fin 65536, rowTerms m c n

/-- The region's result array at that sum. -/
def regionResult (c : Dev nD) : Buf (Elt Ideal) ((c : Thread nD τ).loc main_v14) := fun _ => totalSum m c

/-- The last grid point. -/
def tLast : Fin cfg0.N := ⟨31, by have h : cfg0.N = 32 := N_0; omega⟩

/-- The one write-back, after the last point, writes the sum. -/
theorem flushed_eq (c : Dev nD) (t : Fin cfg0.N) (hf : (cfg0.win 3).flush t = true) :
    (dats m 0 c).flushed 3 t = ((cfg0.win 3).blk t).view.read (Elt Ideal) (regionResult m c) := by
  have hN : cfg0.N = 32 := N_0
  have h31 : t.val % 32 = 31 := (flush0_3 t).mp hf
  have h3 : t.val = 31 := by have := t.isLt; omega
  obtain rfl : t = tLast := Fin.ext h3
  show (cfg0.win 3).cut (grid0.coords tLast) ((dats m 0 c).after 3 tLast) = _
  rw [after0_3]
  have e : (outsAt0 m c tLast.val tLast.isLt).1 = regionResult m c := funext fun y => out_final m c tLast h31 y
  rw [e]
  have hz' : (fun a => win0_3.index tLast a * main_v14.ty.shape.size a) = fun _ => 0 := funext fun a => by fin_cases a <;> decide
  exact (Memref.read_access_unit_zero (Elt Ideal) main_v14 hz' (fun a => by rw [congrFun hz' a]; simp) (regionResult m c)).symm

/-- That block is the whole array. -/
theorem covered (c : Dev nD) (i : ((cfg0.win 3).arr.view.loc (c.tc : Thread nD τ)).2.ty.Idx) :
    ∃ t : Fin cfg0.N, (cfg0.win 3).flush t = true ∧ i ∈ ((cfg0.win 3).blk t).view.set := by
  refine ⟨tLast, (flush0_3 tLast).mpr rfl, ?_⟩
  show i ∈ ((View.whole main_v14).slice (win0_3.rect tLast)).set
  rw [View.set_slice_whole, Rect.mem_set_unit]
  intro a
  have h0 : (i 0 : Nat) < 1 := (i 0).isLt
  have h1 : (i 1 : Nat) < 1 := (i 1).isLt
  match a with
  | ⟨0, _⟩ =>
    show win0_3.index tLast 0 * win0_3.size 0 ≤ (i 0 : Nat) ∧ (i 0 : Nat) < win0_3.index tLast 0 * win0_3.size 0 + win0_3.xsize (grid0.coords tLast) 0
    rw [show win0_3.index tLast 0 * win0_3.size 0 = 0 from by decide +kernel, show win0_3.xsize (grid0.coords tLast) 0 = 1 from by decide +kernel]; omega
  | ⟨1, _⟩ =>
    show win0_3.index tLast 1 * win0_3.size 1 ≤ (i 1 : Nat) ∧ (i 1 : Nat) < win0_3.index tLast 1 * win0_3.size 1 + win0_3.xsize (grid0.coords tLast) 1
    rw [show win0_3.index tLast 1 * win0_3.size 1 = 0 from by decide +kernel, show win0_3.xsize (grid0.coords tLast) 1 = 1 from by decide +kernel]; omega

/-- So the result array ends at the sum. -/
theorem region_final (c : Dev nD) : (dats m 0 c).arrAt 3 cfg0.N = regionResult m c :=
  (dats m 0 c).arrAt_eq_of_cover 3 (regionResult m c) (flushed_eq m c) (covered c)

/-- The positive similarity as the host leaves it before the region. -/
theorem V_posSim (c : Dev nD) :
    (V m c main_v11 : S_.Idx → EReal)
      = posSim (m ((c : Thread nD τ).loc main_arg0)) (m ((c : Thread nD τ).loc main_arg1)) := by
  show StableHlo.after hostOps0 (fun b => m (c, b)) (Proc.devRef .tc main_v11) = _
  after_results
  rfl

/-- The kernel program's result: the loss of the host's positive similarity and the sum over the negatives. -/
def kernelResult (c : Dev nD) : Buf (Elt Ideal) ((c : Thread nD τ).loc main_v21) :=
  lossTail (posSim (m ((c : Thread nD τ).loc main_arg0)) (m ((c : Thread nD τ).loc main_arg1)) ix0)
    (totalSum m c)

/-- The host lines after the region, applied to what the region left. -/
theorem tail_eq (c : Dev nD) :
    Pipeline.afterTail₀ cfgs (dats m) 0 (V0 m) [hostOps1] c main_v21 = kernelResult m c := by
  unfold Pipeline.afterTail₀
  show StableHlo.after hostOps1 _ (Proc.devRef .tc main_v21) = _
  after_results
  have hN : Pipeline.withArrays (cfgs 0).spec c (V0 m c) (fun w => (dats m 0 c).arrAt w (cfgs 0).N) (Proc.devRef .tc main_v14)
      = regionResult m c :=
    (Pipeline.withArrays_arr spec0 launch0.win.arr_inj c _ _ 3).trans (region_final m c)
  have hP : Pipeline.withArrays (cfgs 0).spec c (V0 m c) (fun w => (dats m 0 c).arrAt w (cfgs 0).N) (Proc.devRef .tc main_v11)
      = posSim (m ((c : Thread nD τ).loc main_arg0)) (m ((c : Thread nD τ).loc main_arg1)) :=
    (Pipeline.withArrays_of_ne _ c (V0 m c) _ main_v11 (by exact (by decide : ∀ w, Pipeline.arrRef spec0 w ≠ main_v11))).trans (V_posSim m c)
  rw [hN, hP]
  exact lossTail_eq (posSim (m ((c : Thread nD τ).loc main_arg0)) (m ((c : Thread nD τ).loc main_arg1)))
    (shapeCast S_ (regionResult m c) shapeCasts_S1x1_S_) shapeCasts_S_S1

/-- The host's square root of a scalar, read. -/
theorem hostSqrt_apply (y : FVec Ideal S_ .f32) : Host.sqrt (F := Ideal) y ix0 = Ideal.sqrt (y ix0) := rfl

/-- The host's sum from zero of a vector of 1024 entries is the sum over its coordinate. -/
theorem hostSum_apply (y : FVec Ideal S1024 .f32) :
    Host.reduceAdd (F := Ideal) y (constant (F := Ideal) S_ .f32 0x00000000#32) reducesTo_S1024_S_d0 h_S_ ix0
      = ∑ k : Fin 1024, y (ix1 k) := by
  simp only [Host.reduceAdd, Ideal.hostReduceAdd_def]
  rw [Ideal.hostReduceAdd_total reducesTo_S1024_S_d0 (fun b => b.elim0), Cert.LibIdxSums.sum_idx1, constant_apply,
    Ideal.ofBits_zero_f32, zero_add]

/-- The host's norm of the anchor is the specification's: the square root of the sum of its squared entries. -/
theorem hostNorm_eq (c : Dev nD) : hostNorm m c = anorm (anchorOf m c) := by
  unfold hostNorm anorm anchorOf
  generalize m ((c : Thread nD τ).loc main_arg0) = a
  rw [hostSqrt_apply, hostSum_apply]
  rfl

/-- So the region's sum is the specification's sum over the negatives. -/
theorem totalSum_eq (c : Dev nD) : totalSum m c = negSum (anchorOf m c) (negOf m c) := by
  unfold totalSum negSum rowTerms
  rw [hostNorm_eq]

/-- The run, read: the result at the loss, the three arguments unchanged. -/
theorem run : θ_run defs (onTc (τ := τ) (main (F := Ideal))) ⟨m, fun _ => 0, ρ⟩ (fun r => ∀ c : Dev nD,
      r.2.mem ((c.tc : Thread nD τ).loc main_v21) = kernelResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨
      ((h c).2 main_v21 (Pipeline.mem_restRefs_of main_v21 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩) (run_main m ρ)

end Cert.KernelIdeal.Bridge

end
-- ==== Proof.RefSide.lean ====
/-
  The reference, read at the exact instance.

  Its negative branch computes, for every row n of the negatives, the cosine with the anchor
  (Σ_k a_k x_{n,k}) / max(‖a‖ · ‖x_n‖, ε), divides it by the f32 word of the temperature 0.05, exponentiates, and
  sums over all 65536 rows from zero. Dividing by that word — the rational 13421773 / 2^28 — is multiplying by its
  reciprocal on every extended real, and the products commute, so each row's value is the row term of the
  specification and the sum is the specification's sum. The end of the program is the shared closed form.
-/
import proofs.«109496_j55362128445929_1_alg».proof.Proof.Gen.ReferenceIdeal.Read
import proofs.«109496_j55362128445929_1_alg».proof.Proof.Tail
import proofs.«109496_j55362128445929_1_alg».proof.Proof.LibIdxSums
import Idealize.ShloMosaic.Lib.ValueIdx
import Idealize.ShloMosaic.PureOps.Ideal.Laws

noncomputable section

open scoped BigOperators
open Idealize.ShloMosaic Idealize.ShloMosaic.ValueIdx

namespace Cert.ReferenceIdeal.Bridge

open Cert.ReferenceIdeal Cert.ReferenceIdeal.Read Cert.NegSum

/-- The f32 word of the temperature 0.05 is the rational 13421773 / 2^28. -/
theorem ofBits_temp : Ideal.ofBits .f32 0x3D4CCCCD#32 = ((13421773 / 268435456 : ℝ) : EReal) := by
  simp [Ideal.ofBits, Ideal.ieee, -EReal.coe_mul]; norm_num

/-- Dividing by the temperature's word is multiplying by its reciprocal, on every extended real. -/
theorem div_temp (y : EReal) : Ideal.div y (Ideal.ofBits .f32 0x3D4CCCCD#32) = y * invTemp := by
  rw [ofBits_temp, Ideal.div_coe (by norm_num)]
  refine congrArg (y * ·) (congrArg _ ?_)
  norm_num

variable (x0 x1 : (⟨S1024, .f32⟩ : BufTy).Contents (Elt Ideal)) (x2 : (⟨S65536x1024, .f32⟩ : BufTy).Contents (Elt Ideal))

/-! Where the composed index maps of the reference's layout operations land. -/

theorem idx_dot (n : Fin 65536) (k : Fin 1024) : idx_main_v11 (ix1 n) k = ix2 n k :=
  funext fun a => Fin.ext (by match a with | ⟨0, _⟩ => rfl | ⟨1, _⟩ => rfl)
theorem idx_sq (n : Fin 65536) (k : Fin 1024) : idx_main_call3_v1 (ix1 n) k = ix2 n k :=
  funext fun a => Fin.ext (by match a with | ⟨0, _⟩ => rfl | ⟨1, _⟩ => rfl)
theorem idx_anchor (i : S65536x1024.Idx) (k : Fin 1024) (hk : (i 1).val = k.val) : idx_main_v8 (idx_main_v9 i) = ix1 k :=
  funext fun a => Fin.ext (by match a with | ⟨0, _⟩ => exact hk)
theorem idx_anchor' (i : S1.Idx) (k : Fin 1024) : idx_main_v8 (idx_main_call2_v1 i k) = ix1 k :=
  funext fun a => Fin.ext (by match a with | ⟨0, _⟩ => rfl)

/-- One row of the reference's exponentials is the specification's row term. -/
theorem row_apply (n : Fin 65536) :
    val_main_v21 (F := Ideal) x0 x2 (ix1 n)
      = rowTerm (fun k => x0 (ix1 k)) (anorm (fun k => x0 (ix1 k))) (fun k => x2 (ix2 n k)) := by
  rw [val_main_v21_apply, val_main_v20_apply, val_main_v19_apply, val_main_cst_4_apply, val_main_v18_apply,
    val_main_v11_apply, val_main_v17_apply, val_main_v16_apply, val_main_cst_3_apply, val_main_v15_apply,
    val_main_v14_apply, val_main_v12_apply, val_main_call2_v1_apply, val_main_v13_apply, val_main_call3_v1_apply]
  simp only [val_main_v10_apply, val_main_v9_apply, val_main_v8_apply, val_main_call2_v0_apply, val_main_call3_v0_apply,
    val_main_cst_2_apply, val_main_call2_cst_apply, val_main_call3_cst_apply, Ideal.mulf_def, Ideal.hostDivf_def,
    Ideal.hostUnary_exp_def, Ideal.hostUnary_sqrt_def, Ideal.maximumf_def, Ideal.ofBits_def, Ideal.ofBits_zero_f32, zero_add,
    idx_dot, idx_sq, idx_anchor']
  rw [div_temp]
  unfold rowTerm anorm
  have e1 : ∑ k, x0 (idx_main_v8 (idx_main_v9 (ix2 n k))) * x2 (ix2 n k) = ∑ k, x2 (ix2 n k) * x0 (ix1 k) :=
    Finset.sum_congr rfl fun k _ => by rw [idx_anchor (ix2 n k) k rfl, mul_comm]
  rw [e1, mul_comm (Ideal.sqrt (∑ k, x0 (ix1 k) * x0 (ix1 k)))]

/-- The reference's sum over the negatives is the specification's. -/
theorem negSum_apply (i : S_.Idx) :
    val_main_v22 (F := Ideal) x0 x2 i = negSum (fun k => x0 (ix1 k)) (fun n k => x2 (ix2 n k)) := by
  rw [val_main_v22_apply, val_main_cst_5_apply]
  simp only [Ideal.ofBits_def, Ideal.ofBits_zero_f32, zero_add]
  rw [Cert.LibIdxSums.sum_idx1]
  unfold negSum
  exact Finset.sum_congr rfl fun n _ => row_apply x0 x2 n

/-- The reference's result: the loss of its positive similarity and the specification's sum over the negatives. -/
theorem result_eq :
    val_main_v28 (F := Ideal) x0 x1 x2
      = lossTail (posSim x0 x1 ix0) (negSum (fun k => x0 (ix1 k)) (fun n k => x2 (ix2 n k))) := by
  unfold val_main_v28 val_main_v27 val_main_v26 val_main_v25 val_main_v24 val_main_v23 val_main_cst_6
  refine (lossTail_eq (val_main_v7 (F := Ideal) x0 x1) (val_main_v22 (F := Ideal) x0 x2) _).trans ?_
  rw [negSum_apply]
  rfl

end Cert.ReferenceIdeal.Bridge

end
-- ==== Proof.lean ====
/-
  The certificate: a cosine-similarity contrastive loss, kernel against reference, on the extended reals.

  Both programs return −log(exp(p) / N + ε) as a one-entry array, where p is the anchor–positive cosine divided
  by the temperature and N = Σ_n exp(cos(anchor, negative_n) / temperature) over 65536 negative rows.

  The kernel computes N on the device: 32 grid points, each adding to a carried 1 × 1 accumulator the sum of
  exp(cosine · c) over its block of 2048 rows, c being the literal 20.0 the kernel multiplies by, named and read
  as the exact reciprocal of the f32 word of 0.05 that the reference divides by. The reference computes N as one
  host sum. On the extended reals sums may be regrouped freely, division by a nonzero real is multiplication by
  its reciprocal, and products commute; nothing else separates the two programs, and the inputs' finiteness is
  never used.

  The three frames are the generated ones (the reference's from its generated run); the one rewrite of the
  idealization is the named constant; the value claim joins the kernel's run (KernelRun) and the reference's
  (RefSide) at the specification (Spec, Tail).
-/
import proofs.«109496_j55362128445929_1_alg».proof.Defs
import proofs.«109496_j55362128445929_1_alg».proof.Proof.Gen.Kernel
import proofs.«109496_j55362128445929_1_alg».proof.Proof.Gen.Kernel.Skeleton
import proofs.«109496_j55362128445929_1_alg».proof.Proof.Gen.Kernel.Launch
import proofs.«109496_j55362128445929_1_alg».proof.Proof.Gen.Kernel.Points
import proofs.«109496_j55362128445929_1_alg».proof.Proof.Gen.Kernel.Frame
import proofs.«109496_j55362128445929_1_alg».proof.Proof.Gen.KernelIdeal
import proofs.«109496_j55362128445929_1_alg».proof.Proof.Gen.KernelIdeal.Skeleton
import proofs.«109496_j55362128445929_1_alg».proof.Proof.Gen.KernelIdeal.Launch
import proofs.«109496_j55362128445929_1_alg».proof.Proof.Gen.KernelIdeal.Points
import proofs.«109496_j55362128445929_1_alg».proof.Proof.Gen.KernelIdeal.Frame
import proofs.«109496_j55362128445929_1_alg».proof.Proof.Gen.ReferenceIdeal
import proofs.«109496_j55362128445929_1_alg».proof.Proof.Gen.Pre_finite_inputs
import proofs.«109496_j55362128445929_1_alg».proof.Proof.Gen.ReferenceIdeal.Run
import proofs.«109496_j55362128445929_1_alg».proof.Proof.Gen.ReferenceIdeal.Read
import proofs.«109496_j55362128445929_1_alg».proof.Proof.InvTemp
import proofs.«109496_j55362128445929_1_alg».proof.Proof.KernelRun
import proofs.«109496_j55362128445929_1_alg».proof.Proof.RefSide
import Idealize.ShloMosaic.Adequacy
import Idealize.ShloMosaic.Init

noncomputable section

namespace Cert.Proof

open Idealize.ShloMosaic Idealize.ShloMosaic.TcCoe Idealize.SL.Sem

/-- The printed kernel runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization's one rewrite: the literal 20.0 named the reciprocal of the f32 word of 0.05. -/
theorem preserves : Cert.preserves_Kernel_KernelIdeal :=
  IdealRules.named_const.statement Cert.KernelIdeal.κ "inv_temp" .f32 0x41A00000#32 ((268435456 / 13421773 : ℝ) : EReal) rfl

/-- From memories agreeing on the arguments both programs end at the same loss: the kernel's accumulated sum over
    the negatives is the reference's host sum, and the positive similarity and the end are spelt alike. -/
theorem algebraic : Cert.algebraic_KernelIdeal_ReferenceIdeal := by
  intro m ρ m' ρ' _ hagree
  refine ⟨fun c => Cert.KernelIdeal.Bridge.kernelResult m c, Cert.KernelIdeal.Bridge.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.Bridge.result_eq, (hagree c).1, (hagree c).2.1, (hagree c).2.2]
  show _ = Cert.KernelIdeal.Bridge.kernelResult m c
  unfold Cert.KernelIdeal.Bridge.kernelResult
  rw [Cert.KernelIdeal.Bridge.totalSum_eq]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
